-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S1x256 : Shape := ⟨2, ![1, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S1x768 : S_.BroadcastsInDim S1x768 (![] : Fin 0 → Fin S1x768.rank)
  reducesTo_S1x768_S_d0_1 : S1x768.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_

variable [Facts]

def fn_part3 {F : FTy → Type} [FloatOps F] (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  main_v53

def fn_part2 {F : FTy → Type} [FloatOps F] (main_arg8 : FVec F S256 .f32) (main_arg9 : FVec F S256x256 .f32) (main_arg10 : FVec F S256 .f32) (main_arg11 : FVec F S1x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg11
  let main_cst_18 : FVec F S_ .f32 := constant S_ .f32 0x7F800000#32
  let main_v50 : FVec F S1x256 .f32 := broadcastInDim S1x256 ![] bcast_S_S1x256 main_cst_18
  fn_part3 (F := F) main_v48 main_v49 main_v50

def fn_part1 {F : FTy → Type} [FloatOps F] (main_arg5 : FVec F S768x256 .f32) (main_arg6 : FVec F S1x768 .f32) (main_arg7 : FVec F S256x256 .f32) (main_arg8 : FVec F S256 .f32) (main_arg9 : FVec F S256x256 .f32) (main_arg10 : FVec F S256 .f32) (main_arg11 : FVec F S1x256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768x256 .f32 := Host.absf main_arg5
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S1x768 .f32 := Host.absf main_arg6
  let main_cst_8 : FVec F S_ .f32 := constant S_ .f32 0x7F800000#32
  let main_v25 : FVec F S1x768 .f32 := broadcastInDim S1x768 ![] bcast_S_S1x768 main_cst_8
  let main_v26 : IVec S1x768 1 := cmpf .olt main_v24 main_v25
  let main_c_9 : IVec S_ 1 := constantI S_ 1 1#1
  let main_v27 : IVec S_ 1 := (fun x v => Host.reduce IntOp.andi x v reducesTo_S1x768_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S131072x256 .f32) (main_arg1 : FVec F S131072x256 .f32) (main_arg2 : FVec F S131072x256 .f32) (main_arg3 : IVec S131072 32) (main_arg4 : FVec F S768x256 .f32) (main_arg5 : FVec F S768x256 .f32) (main_arg6 : FVec F S1x768 .f32) (main_arg7 : FVec F S256x256 .f32) (main_arg8 : FVec F S256 .f32) (main_arg9 : FVec F S256x256 .f32) (main_arg10 : FVec F S256 .f32) (main_arg11 : FVec F S1x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S768x256 .f32 := Host.absf main_arg4
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg5 main_arg6 main_arg7 main_arg8 main_arg9 main_arg10 main_arg11 main_v13 main_v16
-- ==== Kernel.lean ====
abbrev S131072x256 : Shape := ⟨2, ![131072, 256]⟩
abbrev S131072 : Shape := ⟨1, ![131072]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S1x256 : Shape := ⟨2, ![1, 256]⟩
abbrev S_ : Shape := ⟨0, ![]⟩
abbrev S131072x1 : Shape := ⟨2, ![131072, 1]⟩
abbrev S256x768 : Shape := ⟨2, ![256, 768]⟩
abbrev S2048x256 : Shape := ⟨2, ![2048, 256]⟩
abbrev S2048x768 : Shape := ⟨2, ![2048, 768]⟩

abbrev nBuf : Space → Nat
  | .hbm => 38
  | .vmem => 18
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072, .i32⟩
  | .hbm, ⟨4, _⟩ => ⟨S768x256, .f32⟩
  | .hbm, ⟨5, _⟩ => ⟨S768x256, .f32⟩
  | .hbm, ⟨6, _⟩ => ⟨S1x768, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x256, .f32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S131072x256, .f32⟩
  | .hbm, ⟨30, _⟩ => ⟨S256x768, .f32⟩
  | .hbm, ⟨31, _⟩ => ⟨S256x768, .f32⟩
  | .hbm, ⟨32, _⟩ => ⟨S256x256, .f32⟩
  | .hbm, ⟨33, _⟩ => ⟨S256x256, .f32⟩
  | .hbm, ⟨34, _⟩ => ⟨S1x256, .f32⟩
  | .hbm, ⟨35, _⟩ => ⟨S1x256, .f32⟩
  | .hbm, ⟨36, _⟩ => ⟨S131072x256, .f32⟩
  | .hbm, ⟨37, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x768, .f32⟩
  | .local _ .vmem, ⟨7, _⟩ => ⟨S256x768, .f32⟩
  | .local _ .vmem, ⟨8, _⟩ => ⟨S1x768, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  transposes_S768x256_S256x768_1_0 : S768x256.Transposes [1, 0] S256x768
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  shapeCasts_S2048x256_S2048x256 : S2048x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1x768_S1x768_0_0 : ∀ a, (![0, 0] : Fin 2 → Nat) a + S1x768.size a ≤ S1x768.size a
  h_S1x768 : 0 < S1x768.numel
  broadcasts_S1x768_S2048x768 : S1x768.Broadcasts S2048x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  gather_S131072x256_S131072x1_S131072x256_1_0_n_n_0_1_1256_wf : GatherDims.WF S131072x256 S131072x1 S131072x256 [1] [0] [] [0] [] 1 ![1, 256]
  dot_S2048x256_S256x768_S2048x768_1_0_0_1_n_n_wf : DotDims.WF S2048x256 S256x768 S2048x768 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .f32 = 32 ∨ (Rect.block (s := S256x768) S256x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S131072x256.size a
  hwx0_11 : ∀ i : grid0.Coords, EltTy.bits .f32 = 32 ∨ (Rect.block (s := S131072x256) S2048x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S131072x256.size a
  hwx0_12 : ∀ i : grid0.Coords, EltTy.bits .f32 = 32 ∨ (Rect.block (s := S131072x256) S2048x256.size (cc0_transform_12 i) (hinb0_12 i)).WholeWords (EltTy.packing .f32)

variable [Facts₀]

def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S2048x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S2048x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S1x256 : Shape := ⟨2, ![1, 256]⟩
abbrev S256x768 : Shape := ⟨2, ![256, 768]⟩
abbrev S131072x768 : Shape := ⟨2, ![131072, 768]⟩
abbrev S_ : Shape := ⟨0, ![]⟩
abbrev S131072x1 : Shape := ⟨2, ![131072, 1]⟩

abbrev nBuf : Space → Nat
  | .hbm => 83
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072, .i32⟩
  | .hbm, ⟨4, _⟩ => ⟨S768x256, .f32⟩
  | .hbm, ⟨5, _⟩ => ⟨S768x256, .f32⟩
  | .hbm, ⟨6, _⟩ => ⟨S1x768, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S256x768, .f32⟩
  | .hbm, ⟨13, _⟩ => ⟨S131072x768, .f32⟩
  | .hbm, ⟨14, _⟩ => ⟨S256x256, .f32⟩
  | .hbm, ⟨15, _⟩ => ⟨S131072x256, .f32⟩
  | .hbm, ⟨16, _⟩ => ⟨S1x256, .f32⟩
  | .hbm, ⟨17, _⟩ => ⟨S131072x256, .f32⟩
  | .hbm, ⟨18, _⟩ => ⟨S131072x256, .f32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x256, .f32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S131072x1, .i32⟩
  | .hbm, ⟨36, _⟩ => ⟨S131072x256, .f32⟩
  | .hbm, ⟨37, _⟩ => ⟨S256x256, .f32⟩
  | .hbm, ⟨38, _⟩ => ⟨S131072x256, .f32⟩
  | .hbm, ⟨39, _⟩ => ⟨S131072x256, .f32⟩
  | .hbm, ⟨40, _⟩ => ⟨S1x256, .f32⟩
  | .hbm, ⟨41, _⟩ => ⟨S131072x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S_, .f32⟩
  | .hbm, ⟨48, _⟩ => ⟨S131072x256, .f32⟩
  | .hbm, ⟨49, _⟩ => ⟨S131072x256, .f32⟩
  | .hbm, ⟨50, _⟩ => ⟨S_, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S131072x768, .f32⟩
  | .hbm, ⟨55, _⟩ => ⟨S131072x768, .f32⟩
  | .hbm, ⟨56, _⟩ => ⟨S256x768, .f32⟩
  | .hbm, ⟨57, _⟩ => ⟨S131072x768, .f32⟩
  | .hbm, ⟨58, _⟩ => ⟨S131072x768, .f32⟩
  | .hbm, ⟨59, _⟩ => ⟨S131072x256, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S_, .f32⟩
  | .hbm, ⟨65, _⟩ => ⟨S131072x256, .f32⟩
  | .hbm, ⟨66, _⟩ => ⟨S131072x256, .f32⟩
  | .hbm, ⟨67, _⟩ => ⟨S_, .f32⟩
  | .hbm, ⟨68, _⟩ => ⟨S131072x256, .f32⟩
  | .hbm, ⟨69, _⟩ => ⟨S131072x256, .f32⟩
  | .hbm, ⟨70, _⟩ => ⟨S131072x256, .f32⟩
  | .hbm, ⟨71, _⟩ => ⟨S131072x256, .f32⟩
  | .hbm, ⟨72, _⟩ => ⟨S131072x256, .f32⟩
  | .hbm, ⟨73, _⟩ => ⟨S131072x256, .f32⟩
  | .hbm, ⟨74, _⟩ => ⟨S131072x256, .f32⟩
  | .hbm, ⟨75, _⟩ => ⟨S_, .f32⟩
  | .hbm, ⟨76, _⟩ => ⟨S131072x256, .f32⟩
  | .hbm, ⟨77, _⟩ => ⟨S131072x256, .f32⟩
  | .hbm, ⟨78, _⟩ => ⟨S_, .f32⟩
  | .hbm, ⟨79, _⟩ => ⟨S131072x256, .f32⟩
  | .hbm, ⟨80, _⟩ => ⟨S131072x256, .f32⟩
  | .hbm, ⟨81, _⟩ => ⟨S131072x256, .f32⟩
  | .hbm, ⟨82, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  transposes_S768x256_S256x768_1_0 : S768x256.Transposes [1, 0] S256x768
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S131072x256 : S_.BroadcastsInDim S131072x256 (![] : Fin 0 → Fin S131072x256.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  dot_S131072x256_S256x768_S131072x768_1_0_0_1_n_n_wf : DotDims.WF S131072x256 S256x768 S131072x768 [1] [0] [0] [1] [] []
  dot_S131072x256_S256x256_S131072x256_1_0_0_1_n_n_wf : DotDims.WF S131072x256 S256x256 S131072x256 [1] [0] [0] [1] [] []
  gather_S131072x256_S131072x1_S131072x256_1_0_n_n_0_1_1256_wf : GatherDims.WF S131072x256 S131072x1 S131072x256 [1] [0] [] [0] [] 1 ![1, 256]

variable [Facts₀]

def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def gather_S131072x256_S131072x1_S131072x256_1_0_n_n_0_1_1256 : GatherDims S131072x256 S131072x1 S131072x256 where
  offsetDims := [1]
  collapsedSliceDims := [0]
  operandBatchingDims := []
  startIndicesBatchingDims := []
  startIndexMap := [0]
  indexVectorDim := 1
  sliceSizes := ![1, 256]
  wf := gather_S131072x256_S131072x1_S131072x256_1_0_n_n_0_1_1256_wf

class Facts : Prop extends Facts₀ where

variable [Facts]
-- ==== Proof.Payload.lean ====
/-
  The kernel body's two computed tiles, entry by entry, on the extended reals.

  One grid point holds 2048 node rows. From the loaded blocks — the rows of `x`, of the gathered child hidden state
  `hc` and child cell state `cc`, the transposed weights and the row-vector biases — the body forms

    * the gate tile (2048 × 768):  (x · W_iouᵀ + b_iou) + hc · U_iouᵀ,
    * the forget tile (2048 × 256): σ((((x · W_fᵀ + W_f_b) + hc · U_fᵀ) + U_f_b) + b_f) · cc,

  every product a matrix product into a zero accumulator, every rounding to the 16-bit format the identity on
  exact values. Read at entry `(r, q)` each product is the plain sum over the 256 contracted positions.
-/
import proofs.«121511_j53506702573723_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellValue

open Cert.KernelIdeal Cert.KernelIdeal.Gen Idealize.ShloMosaic Idealize.ShloMosaic.ValueIdx

/-- Operand indices of the product into S2048x768: the left factor is read at the output's row. -/
theorem lhsWide_0 (i : S2048x768.Idx) (q : dot_S2048x256_S256x768_S2048x768_1_0_0_1_n_n.contr.Idx) :
    (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch by decide), dif_pos (show (0 : Fin S2048x256.rank) ∈ dot_S2048x256_S256x768_S2048x768_1_0_0_1_n_n.lhsNonContracting by decide)]
  rfl
/-- … and at the contracted position along its second axis. -/
theorem lhsWide_1 (i : S2048x768.Idx) (q : dot_S2048x256_S256x768_S2048x768_1_0_0_1_n_n.contr.Idx) :
    (dot_S2048x256_S256x768_S2048x768_1_0_0_1_n_n.lhsIdx i q 1).val = (q ⟨0, by decide⟩).val :=
  dot_S2048x256_S256x768_S2048x768_1_0_0_1_n_n.lhsIdx_val_of_single rfl i q
/-- The right factor is read at the contracted position along its first axis … -/
theorem rhsWide_0 (i : S2048x768.Idx) (q : dot_S2048x256_S256x768_S2048x768_1_0_0_1_n_n.contr.Idx) :
    (dot_S2048x256_S256x768_S2048x768_1_0_0_1_n_n.rhsIdx i q 0).val = (q ⟨0, by decide⟩).val :=
  dot_S2048x256_S256x768_S2048x768_1_0_0_1_n_n.rhsIdx_val_of_single rfl i q
/-- … and at the output's column. -/
theorem rhsWide_1 (i : S2048x768.Idx) (q : dot_S2048x256_S256x768_S2048x768_1_0_0_1_n_n.contr.Idx) :
    (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch by decide), dif_pos (show (1 : Fin S256x768.rank) ∈ dot_S2048x256_S256x768_S2048x768_1_0_0_1_n_n.rhsNonContracting by decide)]
  rfl

/-- A matrix product into a zero accumulator, entry `(p, q)`: the sum over the 256 contracted positions `k` of
    `l[p, k] · r[k, q]`. -/
theorem matmulWide_apply (l : FVec Ideal S2048x256 .bf16) (r : FVec Ideal S256x768 .bf16) (p : Fin 2048) (q : Fin 768) :
    matmul dot_S2048x256_S256x768_S2048x768_1_0_0_1_n_n none l r (constant S2048x768 .f32 0x00000000#32) (ix2 p q)
      = ∑ k : Fin 256, l (ix2 p k) * r (ix2 k q) := by
  show FloatOps.matmul _ none l r (constant _ .f32 0x00000000#32) (ix2 p q) = _
  rw [Ideal.matmul_constant_zero_apply, ← Equiv.sum_comp (contrEquiv1 dot_S2048x256_S256x768_S2048x768_1_0_0_1_n_n 256 rfl rfl).symm]
  refine Finset.sum_congr rfl fun k _ => ?_
  have hk := contrEquiv1_symm_val dot_S2048x256_S256x768_S2048x768_1_0_0_1_n_n 256 rfl rfl k
  have el : dot_S2048x256_S256x768_S2048x768_1_0_0_1_n_n.lhsIdx (ix2 p q) ((contrEquiv1 dot_S2048x256_S256x768_S2048x768_1_0_0_1_n_n 256 rfl rfl).symm k) = ix2 p k := funext fun a => Fin.ext (by
    match a with
    | ⟨0, _⟩ => exact lhsWide_0 _ _
    | ⟨1, _⟩ => exact (lhsWide_1 _ _).trans hk)
  have er : dot_S2048x256_S256x768_S2048x768_1_0_0_1_n_n.rhsIdx (ix2 p q) ((contrEquiv1 dot_S2048x256_S256x768_S2048x768_1_0_0_1_n_n 256 rfl rfl).symm k) = ix2 k q := funext fun a => Fin.ext (by
    match a with
    | ⟨0, _⟩ => exact (rhsWide_0 _ _).trans hk
    | ⟨1, _⟩ => exact rhsWide_1 _ _)
  rw [el, er]

/-- Operand indices of the product into S2048x256: the left factor is read at the output's row. -/
theorem lhsSq_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- … and at the contracted position along its second axis. -/
theorem lhsSq_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- The right factor is read at the contracted position along its first axis … -/
theorem rhsSq_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- … and at the output's column. -/
theorem rhsSq_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A matrix product into a zero accumulator, entry `(p, q)`: the sum over the 256 contracted positions `k` of
    `l[p, k] · r[k, q]`. -/
theorem matmulSq_apply (l : FVec Ideal S2048x256 .bf16) (r : FVec Ideal S256x256 .bf16) (p : Fin 2048) (q : Fin 256) :
    matmul dot_S2048x256_S256x256_S2048x256_1_0_0_1_n_n none l r (constant S2048x256 .f32 0x00000000#32) (ix2 p q)
      = ∑ k : Fin 256, l (ix2 p k) * r (ix2 k q) := by
  show FloatOps.matmul _ none l r (constant _ .f32 0x00000000#32) (ix2 p q) = _
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhsSq_0 _ _
    | ⟨1, _⟩ => exact (lhsSq_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhsSq_0 _ _).trans hk
    | ⟨1, _⟩ => exact rhsSq_1 _ _)
  rw [el, er]

/-- The gate tile at `(r, q)`: node row `r` of the block against column `q` of the transposed stacked weights, plus
    the stacked bias, plus the same for the child's row. -/
theorem gateTile_apply (P0 : Vec Ideal S2048x256 .f32) (P1 : Vec Ideal S256x768 .f32) (P2 : Vec Ideal S2048x256 .f32)
    (P3 : Vec Ideal S256x768 .f32) (P4 : Vec Ideal S1x768 .f32) (r : Fin 2048) (q : Fin 768) :
    k0_pay1 (F := Ideal) (truncf .bf16 (shapeCast S2048x256 P0 shapeCasts_S2048x256_S2048x256) bitsLt_bf16_f32)
        (truncf .bf16 (shapeCast S256x768 P1 shapeCasts_S256x768_S256x768) bitsLt_bf16_f32) (k0_pay7 P2 P3) P4 (ix2 r q)
      = (∑ k : Fin 256, P2 (ix2 r k) * P3 (ix2 k q)) + P4 (ix2 0 q) + ∑ k : Fin 256, P0 (ix2 r k) * P1 (ix2 k q) := by
  unfold k0_pay1 k0_pay7 k0_pay4
  rw [shapeCast_self, shapeCast_self, shapeCast_self]
  dsimp only
  rw [addf_apply, addf_apply, matmulWide_apply, matmulWide_apply, broadcastTo_1b_ab_apply]
  rfl

/-- The forget tile at `(r, j)`: the logistic of the forget gate's pre-activation of node row `r`, unit `j`, times
    the child's cell entry. -/
theorem forgetTile_apply (P2 P0 P5 : Vec Ideal S2048x256 .f32) (P6 P7 : Vec Ideal S256x256 .f32)
    (P8 P9 P10 : Vec Ideal S1x256 .f32) (r : Fin 2048) (j : Fin 256) :
    k0_pay8 (F := Ideal) P2 P0 P5 P6 P7 P8 P9 P10 (ix2 r j)
      = Ideal.logistic ((∑ k : Fin 256, P2 (ix2 r k) * P6 (ix2 k j)) + P8 (ix2 0 j)
          + (∑ k : Fin 256, P0 (ix2 r k) * P7 (ix2 k j)) + P9 (ix2 0 j) + P10 (ix2 0 j)) * P5 (ix2 r j) := by
  unfold k0_pay8 k0_pay4 k0_pay5
  simp only [shapeCast_self]
  rw [mulf_apply]
  show Ideal.logistic ((addf _ _ : FVec Ideal S2048x256 .f32) (ix2 r j)) * P5 (ix2 r j) = _
  rw [addf_apply, addf_apply, addf_apply, addf_apply, matmulSq_apply, matmulSq_apply, broadcastTo_1b_ab_apply,
    broadcastTo_1b_ab_apply, broadcastTo_1b_ab_apply]
  rfl

end Cert.KernelIdeal.CellValue

end
-- ==== Proof.Spec.lean ====
/-
  The Tree-LSTM cell with one child per node, entry by entry, on the extended reals.

  For node `n` and hidden unit `j` (256 units; the three gate blocks `i`, `o`, `u` are rows `j`, `256 + j`,
  `512 + j` of the stacked 768-row weights):

    iou n q      = (∑ₖ x[n,k] · W_iou[q,k] + b_iou[0,q]) + ∑ₖ hc[n,k] · U_iou[q,k]
    forgetPre n j = (((∑ₖ x[n,k] · W_f[j,k] + W_f_b[j]) + ∑ₖ hc[n,k] · U_f[j,k]) + U_f_b[j]) + b_f[0,j]
    c[n,j]       = σ(iou n j) · tanh(iou n (512 + j)) + σ(forgetPre n j) · cc[n,j]
    h[n,j]       = σ(iou n (256 + j)) · tanh(c[n,j])

  where `hc`, `cc` are the child's hidden and cell rows (whatever rows the gather picked: both programs gather them
  the same way, so they enter here as arrays), σ is the logistic function `1 / (1 + e⁻ˣ)` and every sum and product is
  the exact one. The sums are written in the order both programs add their terms, so no rearrangement is ever needed.
-/
import Idealize.ShloMosaic.PureOps.Ideal
import Idealize.ShloMosaic.Lib.ValueIdx

noncomputable section

namespace Cert.TreeLstm

open Idealize.ShloMosaic Idealize.ShloMosaic.ValueIdx

/-- One row of 256 numbers per node: `x`, the gathered child rows, and both results. -/
abbrev Nodes : Shape := ⟨2, ![131072, 256]⟩
/-- The stacked gate weights `W_iou`, `U_iou`: 768 = 3 · 256 rows. -/
abbrev Gates3 : Shape := ⟨2, ![768, 256]⟩
/-- The stacked gate bias `b_iou`, a row vector. -/
abbrev Bias3 : Shape := ⟨2, ![1, 768]⟩
/-- The forget gate's weights `W_f`, `U_f`. -/
abbrev Square : Shape := ⟨2, ![256, 256]⟩
/-- The forget gate's linear biases `W_f_b`, `U_f_b`. -/
abbrev Vec256 : Shape := ⟨1, ![256]⟩
/-- The forget gate's own bias `b_f`, a row vector. -/
abbrev Row256 : Shape := ⟨2, ![1, 256]⟩

/-- Row `j` of the input-gate block of the stacked weights. -/
abbrev inRow (j : Fin 256) : Fin 768 := ⟨j.val, by have := j.isLt; omega⟩
/-- Row `256 + j`: the output-gate block. -/
abbrev outRow (j : Fin 256) : Fin 768 := ⟨j.val + 256, by have := j.isLt; omega⟩
/-- Row `512 + j`: the update block. -/
abbrev updRow (j : Fin 256) : Fin 768 := ⟨j.val + 512, by have := j.isLt; omega⟩

/-- The stacked gate pre-activation of node `n`, row `q`: the node's own projection plus bias, plus the child's. -/
def iou (x hc : FVec Ideal Nodes .f32) (Wiou Uiou : FVec Ideal Gates3 .f32) (biou : FVec Ideal Bias3 .f32)
    (n : Fin 131072) (q : Fin 768) : EReal :=
  (∑ k : Fin 256, x (ix2 n k) * Wiou (ix2 q k)) + biou (ix2 0 q) + ∑ k : Fin 256, hc (ix2 n k) * Uiou (ix2 q k)

/-- The forget gate's pre-activation of node `n`, unit `j`. -/
def forgetPre (x hc : FVec Ideal Nodes .f32) (Wf Uf : FVec Ideal Square .f32) (wfb ufb : FVec Ideal Vec256 .f32)
    (bf : FVec Ideal Row256 .f32) (n : Fin 131072) (j : Fin 256) : EReal :=
  (∑ k : Fin 256, x (ix2 n k) * Wf (ix2 j k)) + wfb (ix1 j) + (∑ k : Fin 256, hc (ix2 n k) * Uf (ix2 j k)) + ufb (ix1 j)
    + bf (ix2 0 j)

/-- The new cell state `c`. -/
def cell (x hc cc : FVec Ideal Nodes .f32) (Wiou Uiou : FVec Ideal Gates3 .f32) (biou : FVec Ideal Bias3 .f32)
    (Wf Uf : FVec Ideal Square .f32) (wfb ufb : FVec Ideal Vec256 .f32) (bf : FVec Ideal Row256 .f32) :
    FVec Ideal Nodes .f32 := fun i =>
  Ideal.logistic (iou x hc Wiou Uiou biou (i 0) (inRow (i 1))) * Ideal.tanh (iou x hc Wiou Uiou biou (i 0) (updRow (i 1)))
    + Ideal.logistic (forgetPre x hc Wf Uf wfb ufb bf (i 0) (i 1)) * cc i

/-- The new hidden state `h`. -/
def hidden (x hc cc : FVec Ideal Nodes .f32) (Wiou Uiou : FVec Ideal Gates3 .f32) (biou : FVec Ideal Bias3 .f32)
    (Wf Uf : FVec Ideal Square .f32) (wfb ufb : FVec Ideal Vec256 .f32) (bf : FVec Ideal Row256 .f32) :
    FVec Ideal Nodes .f32 := fun i =>
  Ideal.logistic (iou x hc Wiou Uiou biou (i 0) (outRow (i 1))) * Ideal.tanh (cell x hc cc Wiou Uiou biou Wf Uf wfb ufb bf i)

/-- The single-precision pattern of one denotes the number one. -/
theorem one_f32 : Ideal.ofBits .f32 0x3F800000#32 = 1 := by
  simp [Ideal.ofBits, Ideal.ieee, -EReal.coe_mul]; norm_num

/-- The logistic function spelled with the pattern of one in both places: `1 / (1 + e⁻ˣ)`. -/
theorem logistic_spelled (x : EReal) :
    Ideal.div (Ideal.ofBits .f32 0x3F800000#32) (Ideal.ofBits .f32 0x3F800000#32 + Ideal.exp (-x)) = Ideal.logistic x := by
  rw [one_f32]; rfl

end Cert.TreeLstm

end
-- ==== Proof.TileValue.lean ====
/-
  What one grid point stores, entry by entry, from its input blocks.

  With the blocks as arbitrary arrays — 2048 rows of `x`, of the child's hidden rows and of its cell rows, the
  transposed weights, the row-vector biases — the body stores, at entry `(r, j)` of the cell block,

      σ(g r j) · tanh(g r (512 + j)) + σ(f r j) · cc[r, j]

  and, at entry `(r, j)` of the hidden block, `σ(g r (256 + j))` times the hyperbolic tangent of that cell entry,
  where `g r q` is the gate tile's entry (row `r` against column `q` of the transposed stacked weights, the stacked
  bias, the child's row likewise) and `f r j` the forget gate's pre-activation. When moreover each block entry is
  the corresponding entry of a whole array — a node row for the three row-blocked inputs, the transposed position
  for a weight, the column alone for a bias — these are the specification's cell and hidden entries of that node.
-/
import proofs.«121511_j53506702573723_1_alg».proof.Proof.Gen.KernelIdeal.Value
import proofs.«121511_j53506702573723_1_alg».proof.Proof.Payload
import proofs.«121511_j53506702573723_1_alg».proof.Proof.Spec

noncomputable section

namespace Cert.KernelIdeal.CellValue

open Cert.KernelIdeal Cert.KernelIdeal.Gen Idealize.ShloMosaic Idealize.ShloMosaic.ValueIdx Cert.TreeLstm

theorem hz : (![0, 0] : Fin 2 → Nat) = fun _ => 0 := funext fun a => by fin_cases a <;> rfl

/-- The gate tile's entry `(r, q)` over the blocks. -/
def tileIou (x0 x1 : Vec Ideal S2048x256 .f32) (x3 x4 : Vec Ideal S256x768 .f32) (x5 : Vec Ideal S1x768 .f32)
    (r : Fin 2048) (q : Fin 768) : EReal :=
  (∑ k : Fin 256, x0 (ix2 r k) * x3 (ix2 k q)) + x5 (ix2 0 q) + ∑ k : Fin 256, x1 (ix2 r k) * x4 (ix2 k q)

/-- The forget gate's pre-activation at `(r, j)` over the blocks. -/
def tileForget (x0 x1 : Vec Ideal S2048x256 .f32) (x6 x8 : Vec Ideal S256x256 .f32) (x7 x9 x10 : Vec Ideal S1x256 .f32)
    (r : Fin 2048) (j : Fin 256) : EReal :=
  (∑ k : Fin 256, x0 (ix2 r k) * x6 (ix2 k j)) + x7 (ix2 0 j) + (∑ k : Fin 256, x1 (ix2 r k) * x8 (ix2 k j)) + x9 (ix2 0 j)
    + x10 (ix2 0 j)

/-- The cell block at `(r, j)`. -/
theorem cellBlock (x0 x1 x2 : Vec Ideal S2048x256 .f32) (x3 x4 : Vec Ideal S256x768 .f32) (x5 : Vec Ideal S1x768 .f32)
    (x6 : Vec Ideal S256x256 .f32) (x7 : Vec Ideal S1x256 .f32) (x8 : Vec Ideal S256x256 .f32) (x9 x10 : Vec Ideal S1x256 .f32) (r : Fin 2048) (j : Fin 256) :
    out0_12 x0 x1 x2 x3 x4 x5 x6 x7 x8 x9 x10 (ix2 r j)
      = Ideal.logistic (tileIou x0 x1 x3 x4 x5 r (inRow j)) * Ideal.tanh (tileIou x0 x1 x3 x4 x5 r (updRow j))
        + Ideal.logistic (tileForget x0 x1 x6 x8 x7 x9 x10 r j) * x2 (ix2 r j) := by
  unfold out0_12
  rw [Value.canon12_eq]
  simp only [View.ld_unit_zero (S := S2048x256) hz, View.ld_unit_zero (S := S256x768) hz, View.ld_unit_zero (S := S1x768) hz,
    View.ld_unit_zero (S := S256x256) hz, View.ld_unit_zero (S := S1x256) hz]
  have i0 : Value.ix12_0 (ix2 r j) = ix2 r (inRow j) :=
    funext fun a => Fin.ext (by match a with | ⟨0, _⟩ => rfl | ⟨1, _⟩ => rfl)
  have i1 : Value.ix12_1 (ix2 r j) = ix2 r (updRow j) :=
    funext fun a => Fin.ext (by match a with | ⟨0, _⟩ => rfl | ⟨1, _⟩ => rfl)
  have i2 : Value.ix12_2 (ix2 r j) = ix2 r j :=
    funext fun a => Fin.ext (by match a with | ⟨0, _⟩ => rfl | ⟨1, _⟩ => rfl)
  dsimp only [Value.E12]
  rw [i0, i1, i2, gateTile_apply, gateTile_apply, forgetTile_apply]
  rfl

/-- The hidden block at `(r, j)`. -/
theorem hiddenBlock (x0 x1 x2 : Vec Ideal S2048x256 .f32) (x3 x4 : Vec Ideal S256x768 .f32) (x5 : Vec Ideal S1x768 .f32)
    (x6 : Vec Ideal S256x256 .f32) (x7 : Vec Ideal S1x256 .f32) (x8 : Vec Ideal S256x256 .f32) (x9 x10 : Vec Ideal S1x256 .f32) (r : Fin 2048) (j : Fin 256) :
    out0_11 x0 x1 x2 x3 x4 x5 x6 x7 x8 x9 x10 (ix2 r j)
      = Ideal.logistic (tileIou x0 x1 x3 x4 x5 r (outRow j))
        * Ideal.tanh (Ideal.logistic (tileIou x0 x1 x3 x4 x5 r (inRow j)) * Ideal.tanh (tileIou x0 x1 x3 x4 x5 r (updRow j))
          + Ideal.logistic (tileForget x0 x1 x6 x8 x7 x9 x10 r j) * x2 (ix2 r j)) := by
  unfold out0_11
  rw [Value.canon11_eq]
  simp only [View.ld_unit_zero (S := S2048x256) hz, View.ld_unit_zero (S := S256x768) hz, View.ld_unit_zero (S := S1x768) hz,
    View.ld_unit_zero (S := S256x256) hz, View.ld_unit_zero (S := S1x256) hz]
  have i0 : Value.ix11_0 (ix2 r j) = ix2 r (outRow j) :=
    funext fun a => Fin.ext (by match a with | ⟨0, _⟩ => rfl | ⟨1, _⟩ => rfl)
  have i1 : Value.ix11_1 (ix2 r j) = ix2 r (inRow j) :=
    funext fun a => Fin.ext (by match a with | ⟨0, _⟩ => rfl | ⟨1, _⟩ => rfl)
  have i2 : Value.ix11_2 (ix2 r j) = ix2 r (updRow j) :=
    funext fun a => Fin.ext (by match a with | ⟨0, _⟩ => rfl | ⟨1, _⟩ => rfl)
  have i3 : Value.ix11_3 (ix2 r j) = ix2 r j :=
    funext fun a => Fin.ext (by match a with | ⟨0, _⟩ => rfl | ⟨1, _⟩ => rfl)
  dsimp only [Value.E11]
  rw [i0, i1, i2, i3, gateTile_apply, gateTile_apply, gateTile_apply, forgetTile_apply]
  rfl

/-! ## The blocks as pieces of whole arrays -/

/-- The gate tile's entry is the specification's stacked pre-activation of the node the row belongs to. -/
theorem tileIou_whole (x0 x1 : Vec Ideal S2048x256 .f32) (x3 x4 : Vec Ideal S256x768 .f32) (x5 : Vec Ideal S1x768 .f32)
    (X HC : FVec Ideal Nodes .f32) (Wiou Uiou : FVec Ideal Gates3 .f32) (biou : FVec Ideal Bias3 .f32) (row : Fin 2048 → Fin 131072)
    (h0 : ∀ (r : Fin 2048) (k : Fin 256), x0 (ix2 r k) = X (ix2 (row r) k)) (h1 : ∀ (r : Fin 2048) (k : Fin 256), x1 (ix2 r k) = HC (ix2 (row r) k))
    (h3 : ∀ (k : Fin 256) (q : Fin 768), x3 (ix2 k q) = Wiou (ix2 q k)) (h4 : ∀ (k : Fin 256) (q : Fin 768), x4 (ix2 k q) = Uiou (ix2 q k))
    (h5 : ∀ q : Fin 768, x5 (ix2 0 q) = biou (ix2 0 q)) (r : Fin 2048) (q : Fin 768) :
    tileIou x0 x1 x3 x4 x5 r q = iou X HC Wiou Uiou biou (row r) q := by
  unfold tileIou iou
  simp only [h0, h1, h3, h4, h5]

/-- The forget tile's pre-activation is the specification's. -/
theorem tileForget_whole (x0 x1 : Vec Ideal S2048x256 .f32) (x6 x8 : Vec Ideal S256x256 .f32) (x7 x9 x10 : Vec Ideal S1x256 .f32)
    (X HC : FVec Ideal Nodes .f32) (Wf Uf : FVec Ideal Square .f32) (wfb ufb : FVec Ideal Vec256 .f32) (bf : FVec Ideal Row256 .f32)
    (row : Fin 2048 → Fin 131072)
    (h0 : ∀ (r : Fin 2048) (k : Fin 256), x0 (ix2 r k) = X (ix2 (row r) k)) (h1 : ∀ (r : Fin 2048) (k : Fin 256), x1 (ix2 r k) = HC (ix2 (row r) k))
    (h6 : ∀ (k j : Fin 256), x6 (ix2 k j) = Wf (ix2 j k)) (h7 : ∀ j : Fin 256, x7 (ix2 0 j) = wfb (ix1 j))
    (h8 : ∀ (k j : Fin 256), x8 (ix2 k j) = Uf (ix2 j k)) (h9 : ∀ j : Fin 256, x9 (ix2 0 j) = ufb (ix1 j))
    (h10 : ∀ j : Fin 256, x10 (ix2 0 j) = bf (ix2 0 j)) (r : Fin 2048) (j : Fin 256) :
    tileForget x0 x1 x6 x8 x7 x9 x10 r j = forgetPre X HC Wf Uf wfb ufb bf (row r) j := by
  unfold tileForget forgetPre
  simp only [h0, h1, h6, h7, h8, h9, h10]

/-- The cell block's entry `(r, j)` is the specification's cell entry of node `row r`, unit `j`. -/
theorem cellBlock_whole (x0 x1 x2 : Vec Ideal S2048x256 .f32) (x3 x4 : Vec Ideal S256x768 .f32) (x5 : Vec Ideal S1x768 .f32)
    (x6 : Vec Ideal S256x256 .f32) (x7 : Vec Ideal S1x256 .f32) (x8 : Vec Ideal S256x256 .f32) (x9 x10 : Vec Ideal S1x256 .f32)
    (X HC CC : FVec Ideal Nodes .f32) (Wiou Uiou : FVec Ideal Gates3 .f32) (biou : FVec Ideal Bias3 .f32)
    (Wf Uf : FVec Ideal Square .f32) (wfb ufb : FVec Ideal Vec256 .f32) (bf : FVec Ideal Row256 .f32) (row : Fin 2048 → Fin 131072)
    (h0 : ∀ (r : Fin 2048) (k : Fin 256), x0 (ix2 r k) = X (ix2 (row r) k))
    (h1 : ∀ (r : Fin 2048) (k : Fin 256), x1 (ix2 r k) = HC (ix2 (row r) k))
    (h2 : ∀ (r : Fin 2048) (k : Fin 256), x2 (ix2 r k) = CC (ix2 (row r) k))
    (h3 : ∀ (k : Fin 256) (q : Fin 768), x3 (ix2 k q) = Wiou (ix2 q k))
    (h4 : ∀ (k : Fin 256) (q : Fin 768), x4 (ix2 k q) = Uiou (ix2 q k))
    (h5 : ∀ q : Fin 768, x5 (ix2 0 q) = biou (ix2 0 q))
    (h6 : ∀ (k j : Fin 256), x6 (ix2 k j) = Wf (ix2 j k))
    (h7 : ∀ j : Fin 256, x7 (ix2 0 j) = wfb (ix1 j))
    (h8 : ∀ (k j : Fin 256), x8 (ix2 k j) = Uf (ix2 j k))
    (h9 : ∀ j : Fin 256, x9 (ix2 0 j) = ufb (ix1 j))
    (h10 : ∀ j : Fin 256, x10 (ix2 0 j) = bf (ix2 0 j))
    (r : Fin 2048) (j : Fin 256) :
    out0_12 x0 x1 x2 x3 x4 x5 x6 x7 x8 x9 x10 (ix2 r j) = cell X HC CC Wiou Uiou biou Wf Uf wfb ufb bf (ix2 (row r) j) := by
  rw [cellBlock, tileIou_whole x0 x1 x3 x4 x5 X HC Wiou Uiou biou row h0 h1 h3 h4 h5,
    tileIou_whole x0 x1 x3 x4 x5 X HC Wiou Uiou biou row h0 h1 h3 h4 h5,
    tileForget_whole x0 x1 x6 x8 x7 x9 x10 X HC Wf Uf wfb ufb bf row h0 h1 h6 h7 h8 h9 h10, h2]
  rfl

/-- The hidden block's entry `(r, j)` is the specification's hidden entry of node `row r`, unit `j`. -/
theorem hiddenBlock_whole (x0 x1 x2 : Vec Ideal S2048x256 .f32) (x3 x4 : Vec Ideal S256x768 .f32) (x5 : Vec Ideal S1x768 .f32)
    (x6 : Vec Ideal S256x256 .f32) (x7 : Vec Ideal S1x256 .f32) (x8 : Vec Ideal S256x256 .f32) (x9 x10 : Vec Ideal S1x256 .f32)
    (X HC CC : FVec Ideal Nodes .f32) (Wiou Uiou : FVec Ideal Gates3 .f32) (biou : FVec Ideal Bias3 .f32)
    (Wf Uf : FVec Ideal Square .f32) (wfb ufb : FVec Ideal Vec256 .f32) (bf : FVec Ideal Row256 .f32) (row : Fin 2048 → Fin 131072)
    (h0 : ∀ (r : Fin 2048) (k : Fin 256), x0 (ix2 r k) = X (ix2 (row r) k))
    (h1 : ∀ (r : Fin 2048) (k : Fin 256), x1 (ix2 r k) = HC (ix2 (row r) k))
    (h2 : ∀ (r : Fin 2048) (k : Fin 256), x2 (ix2 r k) = CC (ix2 (row r) k))
    (h3 : ∀ (k : Fin 256) (q : Fin 768), x3 (ix2 k q) = Wiou (ix2 q k))
    (h4 : ∀ (k : Fin 256) (q : Fin 768), x4 (ix2 k q) = Uiou (ix2 q k))
    (h5 : ∀ q : Fin 768, x5 (ix2 0 q) = biou (ix2 0 q))
    (h6 : ∀ (k j : Fin 256), x6 (ix2 k j) = Wf (ix2 j k))
    (h7 : ∀ j : Fin 256, x7 (ix2 0 j) = wfb (ix1 j))
    (h8 : ∀ (k j : Fin 256), x8 (ix2 k j) = Uf (ix2 j k))
    (h9 : ∀ j : Fin 256, x9 (ix2 0 j) = ufb (ix1 j))
    (h10 : ∀ j : Fin 256, x10 (ix2 0 j) = bf (ix2 0 j))
    (r : Fin 2048) (j : Fin 256) :
    out0_11 x0 x1 x2 x3 x4 x5 x6 x7 x8 x9 x10 (ix2 r j) = hidden X HC CC Wiou Uiou biou Wf Uf wfb ufb bf (ix2 (row r) j) := by
  rw [hiddenBlock, tileIou_whole x0 x1 x3 x4 x5 X HC Wiou Uiou biou row h0 h1 h3 h4 h5,
    tileIou_whole x0 x1 x3 x4 x5 X HC Wiou Uiou biou row h0 h1 h3 h4 h5,
    tileIou_whole x0 x1 x3 x4 x5 X HC Wiou Uiou biou row h0 h1 h3 h4 h5,
    tileForget_whole x0 x1 x6 x8 x7 x9 x10 X HC Wf Uf wfb ufb bf row h0 h1 h6 h7 h8 h9 h10, h2]
  rfl

end Cert.KernelIdeal.CellValue

end
-- ==== Proof.HostArrays.lean ====
/-
  What the region finds in the arrays the host wrote before it.

  Before the one kernel launch the program gathers one child row per node out of `child_h` and out of `child_c`
  (the child's index first brought into range: a negative index has the number of nodes added), transposes the four
  weight matrices, and recasts the two linear biases of 256 entries as row vectors. Each of those arrays, as the
  region finds it, is that operation of the program's arguments as launched.
-/
import proofs.«121511_j53506702573723_1_alg».proof.Proof.Gen.KernelIdeal.Frame
import Idealize.ShloMosaic.Lib.StableHlo.Run
import Idealize.ShloMosaic.PureOps.Ideal

noncomputable section

namespace Cert.KernelIdeal.CellValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- One row of `tbl` per node: row `idx[n]` (plus the number of nodes when negative) for node `n`. -/
def childRows (tbl : (⟨S131072x256, .f32⟩ : BufTy).Contents (Elt Ideal)) (idx : (⟨S131072, .i32⟩ : BufTy).Contents (Elt Ideal)) :
    (⟨S131072x256, .f32⟩ : BufTy).Contents (Elt Ideal) :=
  Host.gather gather_S131072x256_S131072x1_S131072x256_1_0_n_n_0_1_1256 tbl
    (broadcastInDim S131072x1 ![0] bcast_S131072_S131072x1_0
      (select (cmpi .slt idx (broadcastInDim S131072 ![] bcast_S_S131072 (constantI S_ 32 0#32)))
        (addi idx (broadcastInDim S131072 ![] bcast_S_S131072 (constantI S_ 32 131072#32))) idx))

/-- The gathered child hidden rows. -/
theorem V_childH (c : Dev nD) : (V m c main_v6 : S131072x256.Idx → EReal)
    = childRows (m ((c : Thread nD τ).loc main_arg1)) (m ((c : Thread nD τ).loc main_arg3)) := by
  dsimp only [Gen.V, Gen.hostOps0]; after_results; rfl

/-- The gathered child cell rows. -/
theorem V_childC (c : Dev nD) : (V m c main_v13 : S131072x256.Idx → EReal)
    = childRows (m ((c : Thread nD τ).loc main_arg2)) (m ((c : Thread nD τ).loc main_arg3)) := by
  dsimp only [Gen.V, Gen.hostOps0]; after_results; rfl

/-- `W_iou` transposed. -/
theorem V_WiouT (c : Dev nD) : (V m c main_v14 : S256x768.Idx → EReal)
    = transpose S256x768 [1, 0] (m ((c : Thread nD τ).loc main_arg4)) transposes_S768x256_S256x768_1_0 := by
  dsimp only [Gen.V, Gen.hostOps0]; after_results

/-- `U_iou` transposed. -/
theorem V_UiouT (c : Dev nD) : (V m c main_v15 : S256x768.Idx → EReal)
    = transpose S256x768 [1, 0] (m ((c : Thread nD τ).loc main_arg5)) transposes_S768x256_S256x768_1_0 := by
  dsimp only [Gen.V, Gen.hostOps0]; after_results

/-- `W_f` transposed. -/
theorem V_WfT (c : Dev nD) : (V m c main_v16 : S256x256.Idx → EReal)
    = transpose S256x256 [1, 0] (m ((c : Thread nD τ).loc main_arg7)) transposes_S256x256_S256x256_1_0 := by
  dsimp only [Gen.V, Gen.hostOps0]; after_results

/-- `U_f` transposed. -/
theorem V_UfT (c : Dev nD) : (V m c main_v17 : S256x256.Idx → EReal)
    = transpose S256x256 [1, 0] (m ((c : Thread nD τ).loc main_arg9)) transposes_S256x256_S256x256_1_0 := by
  dsimp only [Gen.V, Gen.hostOps0]; after_results

/-- `W_f_b` as a row vector. -/
theorem V_wfbRow (c : Dev nD) : (V m c main_v18 : S1x256.Idx → EReal)
    = shapeCast S1x256 (m ((c : Thread nD τ).loc main_arg8)) shapeCasts_S256_S1x256 := by
  dsimp only [Gen.V, Gen.hostOps0]; after_results; rfl

/-- `U_f_b` as a row vector. -/
theorem V_ufbRow (c : Dev nD) : (V m c main_v19 : S1x256.Idx → EReal)
    = shapeCast S1x256 (m ((c : Thread nD τ).loc main_arg10)) shapeCasts_S256_S1x256 := by
  dsimp only [Gen.V, Gen.hostOps0]; after_results; rfl

end Cert.KernelIdeal.CellValue

end
-- ==== Proof.BlockReads.lean ====
/-
  A window's block at a grid point, read at an entry.

  The grid has 64 points. At point `t` the three row-blocked inputs (`x` and the two gathered child arrays) and
  both outputs hold rows `2048 · t … 2048 · t + 2047` of their arrays; every other input window holds its whole array
  at every point. So a block entry `(r, k)` is the array's entry `(2048 · t + r, k)`, respectively `(r, k)` itself.
  The index maps are decided once over the 64 points.
-/
import proofs.«121511_j53506702573723_1_alg».proof.Proof.Gen.KernelIdeal.Frame
import Idealize.ShloMosaic.Lib.ValueIdx
import Idealize.ShloMosaic.PureOps.Ideal

noncomputable section

namespace Cert.KernelIdeal.CellValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The node row that row `r` of point `t`'s block is. -/
def nodeRow (t : Fin cfg0.N) (r : Fin 2048) : Fin 131072 :=
  ⟨t.val * 2048 + r.val, by have ht := t.isLt; have hN : cfg0.N = 64 := N_0; have hr := r.isLt; omega⟩

theorem nodeRow_val (t : Fin cfg0.N) (r : Fin 2048) : (nodeRow t r).val = t.val * 2048 + r.val := rfl

/-- Window 0's block index at point `t`: row block `t`, the one column block. -/
theorem idx0 : ∀ t : Fin cfg0.N, win0_0.index t (0 : Fin 2) = t.val ∧ win0_0.index t (1 : Fin 2) = 0 :=
  (by decide +kernel : ∀ t : Fin grid0.N, _)

/-- Window 1's block index at point `t`: row block `t`, the one column block. -/
theorem idx1 : ∀ t : Fin cfg0.N, win0_1.index t (0 : Fin 2) = t.val ∧ win0_1.index t (1 : Fin 2) = 0 :=
  (by decide +kernel : ∀ t : Fin grid0.N, _)

/-- Window 2's block index at point `t`: row block `t`, the one column block. -/
theorem idx2 : ∀ t : Fin cfg0.N, win0_2.index t (0 : Fin 2) = t.val ∧ win0_2.index t (1 : Fin 2) = 0 :=
  (by decide +kernel : ∀ t : Fin grid0.N, _)

/-- Window 3's block index at point `t`: the one block. -/
theorem idx3 : ∀ t : Fin cfg0.N, win0_3.index t (0 : Fin 2) = 0 ∧ win0_3.index t (1 : Fin 2) = 0 :=
  (by decide +kernel : ∀ t : Fin grid0.N, _)

/-- Window 4's block index at point `t`: the one block. -/
theorem idx4 : ∀ t : Fin cfg0.N, win0_4.index t (0 : Fin 2) = 0 ∧ win0_4.index t (1 : Fin 2) = 0 :=
  (by decide +kernel : ∀ t : Fin grid0.N, _)

/-- Window 5's block index at point `t`: the one block. -/
theorem idx5 : ∀ t : Fin cfg0.N, win0_5.index t (0 : Fin 2) = 0 ∧ win0_5.index t (1 : Fin 2) = 0 :=
  (by decide +kernel : ∀ t : Fin grid0.N, _)

/-- Window 6's block index at point `t`: the one block. -/
theorem idx6 : ∀ t : Fin cfg0.N, win0_6.index t (0 : Fin 2) = 0 ∧ win0_6.index t (1 : Fin 2) = 0 :=
  (by decide +kernel : ∀ t : Fin grid0.N, _)

/-- Window 7's block index at point `t`: the one block. -/
theorem idx7 : ∀ t : Fin cfg0.N, win0_7.index t (0 : Fin 2) = 0 ∧ win0_7.index t (1 : Fin 2) = 0 :=
  (by decide +kernel : ∀ t : Fin grid0.N, _)

/-- Window 8's block index at point `t`: the one block. -/
theorem idx8 : ∀ t : Fin cfg0.N, win0_8.index t (0 : Fin 2) = 0 ∧ win0_8.index t (1 : Fin 2) = 0 :=
  (by decide +kernel : ∀ t : Fin grid0.N, _)

/-- Window 9's block index at point `t`: the one block. -/
theorem idx9 : ∀ t : Fin cfg0.N, win0_9.index t (0 : Fin 2) = 0 ∧ win0_9.index t (1 : Fin 2) = 0 :=
  (by decide +kernel : ∀ t : Fin grid0.N, _)

/-- Window 10's block index at point `t`: the one block. -/
theorem idx10 : ∀ t : Fin cfg0.N, win0_10.index t (0 : Fin 2) = 0 ∧ win0_10.index t (1 : Fin 2) = 0 :=
  (by decide +kernel : ∀ t : Fin grid0.N, _)

/-- Window 11's block index at point `t`: row block `t`, the one column block. -/
theorem idx11 : ∀ t : Fin cfg0.N, win0_11.index t (0 : Fin 2) = t.val ∧ win0_11.index t (1 : Fin 2) = 0 :=
  (by decide +kernel : ∀ t : Fin grid0.N, _)

/-- Window 12's block index at point `t`: row block `t`, the one column block. -/
theorem idx12 : ∀ t : Fin cfg0.N, win0_12.index t (0 : Fin 2) = t.val ∧ win0_12.index t (1 : Fin 2) = 0 :=
  (by decide +kernel : ∀ t : Fin grid0.N, _)

/-- Entry `(r, k)` of window 0's block at point `t` is entry `(2048 · t + r, k)` of its array. -/
theorem read_x (c : Dev nD) (t : Fin cfg0.N) (r : Fin 2048) (k : Fin 256) :
    iblk m c 0 t (ix2 r k) = V m c main_arg0 (ix2 (nodeRow t r) k) := by
  show V m c main_arg0 (((cfg0.win 0).blk t).view.emb (ix2 r k)) = _
  refine congrArg (V m c main_arg0) ?_
  obtain ⟨e0, e1⟩ := idx0 t
  funext a; apply Fin.ext
  match a with
  | ⟨0, _⟩ => show win0_0.index t (0 : Fin 2) * 2048 + 1 * r.val = t.val * 2048 + r.val; rw [e0]; omega
  | ⟨1, _⟩ => show win0_0.index t (1 : Fin 2) * 256 + 1 * k.val = k.val; rw [e1]; omega

/-- Entry `(r, k)` of window 1's block at point `t` is entry `(2048 · t + r, k)` of its array. -/
theorem read_childH (c : Dev nD) (t : Fin cfg0.N) (r : Fin 2048) (k : Fin 256) :
    iblk m c 1 t (ix2 r k) = V m c main_v6 (ix2 (nodeRow t r) k) := by
  show V m c main_v6 (((cfg0.win 1).blk t).view.emb (ix2 r k)) = _
  refine congrArg (V m c main_v6) ?_
  obtain ⟨e0, e1⟩ := idx1 t
  funext a; apply Fin.ext
  match a with
  | ⟨0, _⟩ => show win0_1.index t (0 : Fin 2) * 2048 + 1 * r.val = t.val * 2048 + r.val; rw [e0]; omega
  | ⟨1, _⟩ => show win0_1.index t (1 : Fin 2) * 256 + 1 * k.val = k.val; rw [e1]; omega

/-- Entry `(r, k)` of window 2's block at point `t` is entry `(2048 · t + r, k)` of its array. -/
theorem read_childC (c : Dev nD) (t : Fin cfg0.N) (r : Fin 2048) (k : Fin 256) :
    iblk m c 2 t (ix2 r k) = V m c main_v13 (ix2 (nodeRow t r) k) := by
  show V m c main_v13 (((cfg0.win 2).blk t).view.emb (ix2 r k)) = _
  refine congrArg (V m c main_v13) ?_
  obtain ⟨e0, e1⟩ := idx2 t
  funext a; apply Fin.ext
  match a with
  | ⟨0, _⟩ => show win0_2.index t (0 : Fin 2) * 2048 + 1 * r.val = t.val * 2048 + r.val; rw [e0]; omega
  | ⟨1, _⟩ => show win0_2.index t (1 : Fin 2) * 256 + 1 * k.val = k.val; rw [e1]; omega

/-- Entry `(r, k)` of window 3's block at point `t` is entry `(r, k)` of its array. -/
theorem read_WiouT (c : Dev nD) (t : Fin cfg0.N) (r : Fin 256) (k : Fin 768) :
    iblk m c 3 t (ix2 r k) = V m c main_v14 (ix2 r k) := by
  show V m c main_v14 (((cfg0.win 3).blk t).view.emb (ix2 r k)) = _
  refine congrArg (V m c main_v14) ?_
  obtain ⟨e0, e1⟩ := idx3 t
  funext a; apply Fin.ext
  match a with
  | ⟨0, _⟩ => show win0_3.index t (0 : Fin 2) * 256 + 1 * r.val = r.val; rw [e0]; omega
  | ⟨1, _⟩ => show win0_3.index t (1 : Fin 2) * 768 + 1 * k.val = k.val; rw [e1]; omega

/-- Entry `(r, k)` of window 4's block at point `t` is entry `(r, k)` of its array. -/
theorem read_UiouT (c : Dev nD) (t : Fin cfg0.N) (r : Fin 256) (k : Fin 768) :
    iblk m c 4 t (ix2 r k) = V m c main_v15 (ix2 r k) := by
  show V m c main_v15 (((cfg0.win 4).blk t).view.emb (ix2 r k)) = _
  refine congrArg (V m c main_v15) ?_
  obtain ⟨e0, e1⟩ := idx4 t
  funext a; apply Fin.ext
  match a with
  | ⟨0, _⟩ => show win0_4.index t (0 : Fin 2) * 256 + 1 * r.val = r.val; rw [e0]; omega
  | ⟨1, _⟩ => show win0_4.index t (1 : Fin 2) * 768 + 1 * k.val = k.val; rw [e1]; omega

/-- Entry `(r, k)` of window 5's block at point `t` is entry `(r, k)` of its array. -/
theorem read_biou (c : Dev nD) (t : Fin cfg0.N) (r : Fin 1) (k : Fin 768) :
    iblk m c 5 t (ix2 r k) = V m c main_arg6 (ix2 r k) := by
  show V m c main_arg6 (((cfg0.win 5).blk t).view.emb (ix2 r k)) = _
  refine congrArg (V m c main_arg6) ?_
  obtain ⟨e0, e1⟩ := idx5 t
  funext a; apply Fin.ext
  match a with
  | ⟨0, _⟩ => show win0_5.index t (0 : Fin 2) * 1 + 1 * r.val = r.val; rw [e0]; omega
  | ⟨1, _⟩ => show win0_5.index t (1 : Fin 2) * 768 + 1 * k.val = k.val; rw [e1]; omega

/-- Entry `(r, k)` of window 6's block at point `t` is entry `(r, k)` of its array. -/
theorem read_WfT (c : Dev nD) (t : Fin cfg0.N) (r : Fin 256) (k : Fin 256) :
    iblk m c 6 t (ix2 r k) = V m c main_v16 (ix2 r k) := by
  show V m c main_v16 (((cfg0.win 6).blk t).view.emb (ix2 r k)) = _
  refine congrArg (V m c main_v16) ?_
  obtain ⟨e0, e1⟩ := idx6 t
  funext a; apply Fin.ext
  match a with
  | ⟨0, _⟩ => show win0_6.index t (0 : Fin 2) * 256 + 1 * r.val = r.val; rw [e0]; omega
  | ⟨1, _⟩ => show win0_6.index t (1 : Fin 2) * 256 + 1 * k.val = k.val; rw [e1]; omega

/-- Entry `(r, k)` of window 7's block at point `t` is entry `(r, k)` of its array. -/
theorem read_wfbRow (c : Dev nD) (t : Fin cfg0.N) (r : Fin 1) (k : Fin 256) :
    iblk m c 7 t (ix2 r k) = V m c main_v18 (ix2 r k) := by
  show V m c main_v18 (((cfg0.win 7).blk t).view.emb (ix2 r k)) = _
  refine congrArg (V m c main_v18) ?_
  obtain ⟨e0, e1⟩ := idx7 t
  funext a; apply Fin.ext
  match a with
  | ⟨0, _⟩ => show win0_7.index t (0 : Fin 2) * 1 + 1 * r.val = r.val; rw [e0]; omega
  | ⟨1, _⟩ => show win0_7.index t (1 : Fin 2) * 256 + 1 * k.val = k.val; rw [e1]; omega

/-- Entry `(r, k)` of window 8's block at point `t` is entry `(r, k)` of its array. -/
theorem read_UfT (c : Dev nD) (t : Fin cfg0.N) (r : Fin 256) (k : Fin 256) :
    iblk m c 8 t (ix2 r k) = V m c main_v17 (ix2 r k) := by
  show V m c main_v17 (((cfg0.win 8).blk t).view.emb (ix2 r k)) = _
  refine congrArg (V m c main_v17) ?_
  obtain ⟨e0, e1⟩ := idx8 t
  funext a; apply Fin.ext
  match a with
  | ⟨0, _⟩ => show win0_8.index t (0 : Fin 2) * 256 + 1 * r.val = r.val; rw [e0]; omega
  | ⟨1, _⟩ => show win0_8.index t (1 : Fin 2) * 256 + 1 * k.val = k.val; rw [e1]; omega

/-- Entry `(r, k)` of window 9's block at point `t` is entry `(r, k)` of its array. -/
theorem read_ufbRow (c : Dev nD) (t : Fin cfg0.N) (r : Fin 1) (k : Fin 256) :
    iblk m c 9 t (ix2 r k) = V m c main_v19 (ix2 r k) := by
  show V m c main_v19 (((cfg0.win 9).blk t).view.emb (ix2 r k)) = _
  refine congrArg (V m c main_v19) ?_
  obtain ⟨e0, e1⟩ := idx9 t
  funext a; apply Fin.ext
  match a with
  | ⟨0, _⟩ => show win0_9.index t (0 : Fin 2) * 1 + 1 * r.val = r.val; rw [e0]; omega
  | ⟨1, _⟩ => show win0_9.index t (1 : Fin 2) * 256 + 1 * k.val = k.val; rw [e1]; omega

/-- Entry `(r, k)` of window 10's block at point `t` is entry `(r, k)` of its array. -/
theorem read_bf (c : Dev nD) (t : Fin cfg0.N) (r : Fin 1) (k : Fin 256) :
    iblk m c 10 t (ix2 r k) = V m c main_arg11 (ix2 r k) := by
  show V m c main_arg11 (((cfg0.win 10).blk t).view.emb (ix2 r k)) = _
  refine congrArg (V m c main_arg11) ?_
  obtain ⟨e0, e1⟩ := idx10 t
  funext a; apply Fin.ext
  match a with
  | ⟨0, _⟩ => show win0_10.index t (0 : Fin 2) * 1 + 1 * r.val = r.val; rw [e0]; omega
  | ⟨1, _⟩ => show win0_10.index t (1 : Fin 2) * 256 + 1 * k.val = k.val; rw [e1]; omega

end Cert.KernelIdeal.CellValue

end
-- ==== Proof.CellArrays.lean ====
/-
  The kernel's two result arrays are the specification's cell and hidden arrays.

  Point `t` of the 64-point grid reads rows `2048 · t …` of `x` and of the two gathered child arrays, and the whole
  of every weight and bias; what it writes back to each result array is rows `2048 · t …` of the specification's
  array (the blocks' entries are the whole arrays' entries: a transposed weight read at `(k, q)` is the weight at
  `(q, k)`, a 256-entry bias recast as a row vector read at `(0, j)` is the bias at `j`). The 64 blocks cover all
  131072 rows, so after the run each result array is the specification's, entry by entry.
-/
import proofs.«121511_j53506702573723_1_alg».proof.Proof.Gen.KernelIdeal.Value
import proofs.«121511_j53506702573723_1_alg».proof.Proof.TileValue
import proofs.«121511_j53506702573723_1_alg».proof.Proof.HostArrays
import proofs.«121511_j53506702573723_1_alg».proof.Proof.BlockReads
import Idealize.ShloMosaic.Lib.ValueLayout

noncomputable section

namespace Cert.KernelIdeal.CellValue

open Cert.KernelIdeal Cert.KernelIdeal.Gen Idealize.ShloMosaic Idealize.ShloMosaic.TcCoe Idealize.SL.Sem
open Idealize.ShloMosaic.ValueIdx Cert.TreeLstm
open Idealize.ShloMosaic.Pipeline (Dat)

variable (m : (ℓ : Loc nD τ sig) → Buf (Elt Ideal) ℓ) (ρ : Dev nD → PrngReg)

/-- The specification's cell array of core `c`'s arguments as launched. -/
def cellOf (c : Dev nD) : FVec Ideal Nodes .f32 :=
  cell (m ((c : Thread nD τ).loc main_arg0)) (childRows (m ((c : Thread nD τ).loc main_arg1)) (m ((c : Thread nD τ).loc main_arg3)))
    (childRows (m ((c : Thread nD τ).loc main_arg2)) (m ((c : Thread nD τ).loc main_arg3))) (m ((c : Thread nD τ).loc main_arg4)) (m ((c : Thread nD τ).loc main_arg5))
    (m ((c : Thread nD τ).loc main_arg6)) (m ((c : Thread nD τ).loc main_arg7)) (m ((c : Thread nD τ).loc main_arg9))
    (m ((c : Thread nD τ).loc main_arg8)) (m ((c : Thread nD τ).loc main_arg10)) (m ((c : Thread nD τ).loc main_arg11))

/-- The specification's hidden array of core `c`'s arguments as launched. -/
def hiddenOf (c : Dev nD) : FVec Ideal Nodes .f32 :=
  hidden (m ((c : Thread nD τ).loc main_arg0)) (childRows (m ((c : Thread nD τ).loc main_arg1)) (m ((c : Thread nD τ).loc main_arg3)))
    (childRows (m ((c : Thread nD τ).loc main_arg2)) (m ((c : Thread nD τ).loc main_arg3))) (m ((c : Thread nD τ).loc main_arg4)) (m ((c : Thread nD τ).loc main_arg5))
    (m ((c : Thread nD τ).loc main_arg6)) (m ((c : Thread nD τ).loc main_arg7)) (m ((c : Thread nD τ).loc main_arg9))
    (m ((c : Thread nD τ).loc main_arg8)) (m ((c : Thread nD τ).loc main_arg10)) (m ((c : Thread nD τ).loc main_arg11))

/-- What point `t` writes back to the cell array is block `t` of the specification's cell array. -/
theorem flushedCell_eq (c : Dev nD) (t : Fin cfg0.N) :
    (dats m 0 c).flushed 12 t = ((cfg0.win 12).blk t).view.read (Elt Ideal) (cellOf m c) := by
  rw [Value.flushed12]
  funext y
  obtain ⟨r, j, rfl⟩ : ∃ (r : Fin 2048) (j : Fin 256), y = ix2 r j := ⟨y 0, y 1, eq_ix2 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = cellOf m c (((cfg0.win 12).blk t).view.emb (ix2 r j))
  have hemb : ((cfg0.win 12).blk t).view.emb (ix2 r j) = ix2 (nodeRow t r) j := by
    obtain ⟨e0, e1⟩ := idx12 t
    funext a; apply Fin.ext
    match a with
    | ⟨0, _⟩ => show win0_12.index t (0 : Fin 2) * 2048 + 1 * r.val = t.val * 2048 + r.val; rw [e0]; omega
    | ⟨1, _⟩ => show win0_12.index t (1 : Fin 2) * 256 + 1 * j.val = j.val; rw [e1]; omega
  rw [hemb]
  exact cellBlock_whole (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (childRows (m ((c : Thread nD τ).loc main_arg1)) (m ((c : Thread nD τ).loc main_arg3)))
    (childRows (m ((c : Thread nD τ).loc main_arg2)) (m ((c : Thread nD τ).loc main_arg3))) (m ((c : Thread nD τ).loc main_arg4)) (m ((c : Thread nD τ).loc main_arg5))
    (m ((c : Thread nD τ).loc main_arg6)) (m ((c : Thread nD τ).loc main_arg7)) (m ((c : Thread nD τ).loc main_arg9))
    (m ((c : Thread nD τ).loc main_arg8)) (m ((c : Thread nD τ).loc main_arg10)) (m ((c : Thread nD τ).loc main_arg11)) (nodeRow t)
    (fun r k => (read_x m c t r k).trans (congrFun (V_main_arg0 m c) _))
    (fun r k => (read_childH m c t r k).trans (congrFun (V_childH m c) _))
    (fun r k => (read_childC m c t r k).trans (congrFun (V_childC m c) _))
    (fun k q => (read_WiouT m c t k q).trans ((congrFun (V_WiouT m c) _).trans (transpose_ix2_apply (m ((c : Thread nD τ).loc main_arg4)) transposes_S768x256_S256x768_1_0 k q)))
    (fun k q => (read_UiouT m c t k q).trans ((congrFun (V_UiouT m c) _).trans (transpose_ix2_apply (m ((c : Thread nD τ).loc main_arg5)) transposes_S768x256_S256x768_1_0 k q)))
    (fun q => (read_biou m c t 0 q).trans (congrFun (V_main_arg6 m c) _))
    (fun k j => (read_WfT m c t k j).trans ((congrFun (V_WfT m c) _).trans (transpose_ix2_apply (m ((c : Thread nD τ).loc main_arg7)) transposes_S256x256_S256x256_1_0 k j)))
    (fun j => (read_wfbRow m c t 0 j).trans ((congrFun (V_wfbRow m c) _).trans (shapeCast_a_1a_apply (m ((c : Thread nD τ).loc main_arg8)) shapeCasts_S256_S1x256 0 j)))
    (fun k j => (read_UfT m c t k j).trans ((congrFun (V_UfT m c) _).trans (transpose_ix2_apply (m ((c : Thread nD τ).loc main_arg9)) transposes_S256x256_S256x256_1_0 k j)))
    (fun j => (read_ufbRow m c t 0 j).trans ((congrFun (V_ufbRow m c) _).trans (shapeCast_a_1a_apply (m ((c : Thread nD τ).loc main_arg10)) shapeCasts_S256_S1x256 0 j)))
    (fun j => (read_bf m c t 0 j).trans (congrFun (V_main_arg11 m c) _))
    r j

/-- An entry of the cell array is in point `t`'s block iff its row is among the block's 2048 rows. -/
theorem mem_blk12 (t : Fin cfg0.N) (i : S131072x256.Idx) :
    i ∈ ((cfg0.win 12).blk t).view.set ↔ ∀ a : Fin 2, win0_12.index t a * S2048x256.size a ≤ (i a).val ∧ (i a).val < win0_12.index t a * S2048x256.size a + S2048x256.size a := by
  show i ∈ ((View.whole main_v20_1).slice (win0_12.rect t)).set ↔ _
  rw [View.set_slice_whole, Rect.mem_set_unit]
  exact Iff.rfl

/-- Every entry is in the block of the point its row, divided by 2048, names. -/
theorem cover12 (i : S131072x256.Idx) :
    ∃ t : Fin cfg0.N, (cfg0.win 12).flush t = true ∧ i ∈ ((cfg0.win 12).blk t).view.set := by
  have hi0 : (i 0).val < 131072 := (i 0).isLt
  have hi1 : (i 1).val < 256 := (i 1).isLt
  have hN : cfg0.N = 64 := N_0
  obtain ⟨t, ht⟩ : ∃ t : Fin cfg0.N, t.val = (i 0).val / 2048 := ⟨⟨(i 0).val / 2048, by omega⟩, rfl⟩
  obtain ⟨e0, e1⟩ := idx12 t
  refine ⟨t, flush0_12 t, ?_⟩
  rw [mem_blk12]
  intro a
  match a with
  | ⟨0, _⟩ => show win0_12.index t (0 : Fin 2) * 2048 ≤ (i 0).val ∧ (i 0).val < win0_12.index t (0 : Fin 2) * 2048 + 2048; rw [e0, ht]; omega
  | ⟨1, _⟩ => show win0_12.index t (1 : Fin 2) * 256 ≤ (i 1).val ∧ (i 1).val < win0_12.index t (1 : Fin 2) * 256 + 256; rw [e1]; omega

/-- The cell array after the run is the specification's. -/
theorem finalCell (c : Dev nD) : (dats m 0 c).arrAt 12 cfg0.N = cellOf m c :=
  (dats m 0 c).arrAt_eq_of_cover 12 (cellOf m c) (fun t _ => flushedCell_eq m c t) cover12

/-- What point `t` writes back to the hidden array is block `t` of the specification's hidden array. -/
theorem flushedHidden_eq (c : Dev nD) (t : Fin cfg0.N) :
    (dats m 0 c).flushed 11 t = ((cfg0.win 11).blk t).view.read (Elt Ideal) (hiddenOf m c) := by
  rw [Value.flushed11]
  funext y
  obtain ⟨r, j, rfl⟩ : ∃ (r : Fin 2048) (j : Fin 256), y = ix2 r j := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = hiddenOf m c (((cfg0.win 11).blk t).view.emb (ix2 r j))
  have hemb : ((cfg0.win 11).blk t).view.emb (ix2 r j) = ix2 (nodeRow t r) j := by
    obtain ⟨e0, e1⟩ := idx11 t
    funext a; apply Fin.ext
    match a with
    | ⟨0, _⟩ => show win0_11.index t (0 : Fin 2) * 2048 + 1 * r.val = t.val * 2048 + r.val; rw [e0]; omega
    | ⟨1, _⟩ => show win0_11.index t (1 : Fin 2) * 256 + 1 * j.val = j.val; rw [e1]; omega
  rw [hemb]
  exact hiddenBlock_whole (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (childRows (m ((c : Thread nD τ).loc main_arg1)) (m ((c : Thread nD τ).loc main_arg3)))
    (childRows (m ((c : Thread nD τ).loc main_arg2)) (m ((c : Thread nD τ).loc main_arg3))) (m ((c : Thread nD τ).loc main_arg4)) (m ((c : Thread nD τ).loc main_arg5))
    (m ((c : Thread nD τ).loc main_arg6)) (m ((c : Thread nD τ).loc main_arg7)) (m ((c : Thread nD τ).loc main_arg9))
    (m ((c : Thread nD τ).loc main_arg8)) (m ((c : Thread nD τ).loc main_arg10)) (m ((c : Thread nD τ).loc main_arg11)) (nodeRow t)
    (fun r k => (read_x m c t r k).trans (congrFun (V_main_arg0 m c) _))
    (fun r k => (read_childH m c t r k).trans (congrFun (V_childH m c) _))
    (fun r k => (read_childC m c t r k).trans (congrFun (V_childC m c) _))
    (fun k q => (read_WiouT m c t k q).trans ((congrFun (V_WiouT m c) _).trans (transpose_ix2_apply (m ((c : Thread nD τ).loc main_arg4)) transposes_S768x256_S256x768_1_0 k q)))
    (fun k q => (read_UiouT m c t k q).trans ((congrFun (V_UiouT m c) _).trans (transpose_ix2_apply (m ((c : Thread nD τ).loc main_arg5)) transposes_S768x256_S256x768_1_0 k q)))
    (fun q => (read_biou m c t 0 q).trans (congrFun (V_main_arg6 m c) _))
    (fun k j => (read_WfT m c t k j).trans ((congrFun (V_WfT m c) _).trans (transpose_ix2_apply (m ((c : Thread nD τ).loc main_arg7)) transposes_S256x256_S256x256_1_0 k j)))
    (fun j => (read_wfbRow m c t 0 j).trans ((congrFun (V_wfbRow m c) _).trans (shapeCast_a_1a_apply (m ((c : Thread nD τ).loc main_arg8)) shapeCasts_S256_S1x256 0 j)))
    (fun k j => (read_UfT m c t k j).trans ((congrFun (V_UfT m c) _).trans (transpose_ix2_apply (m ((c : Thread nD τ).loc main_arg9)) transposes_S256x256_S256x256_1_0 k j)))
    (fun j => (read_ufbRow m c t 0 j).trans ((congrFun (V_ufbRow m c) _).trans (shapeCast_a_1a_apply (m ((c : Thread nD τ).loc main_arg10)) shapeCasts_S256_S1x256 0 j)))
    (fun j => (read_bf m c t 0 j).trans (congrFun (V_main_arg11 m c) _))
    r j

/-- An entry of the hidden array is in point `t`'s block iff its row is among the block's 2048 rows. -/
theorem mem_blk11 (t : Fin cfg0.N) (i : S131072x256.Idx) :
    i ∈ ((cfg0.win 11).blk t).view.set ↔ ∀ a : Fin 2, win0_11.index t a * S2048x256.size a ≤ (i a).val ∧ (i a).val < win0_11.index t a * S2048x256.size a + S2048x256.size a := by
  show i ∈ ((View.whole main_v20_0).slice (win0_11.rect t)).set ↔ _
  rw [View.set_slice_whole, Rect.mem_set_unit]
  exact Iff.rfl

/-- Every entry is in the block of the point its row, divided by 2048, names. -/
theorem cover11 (i : S131072x256.Idx) :
    ∃ t : Fin cfg0.N, (cfg0.win 11).flush t = true ∧ i ∈ ((cfg0.win 11).blk t).view.set := by
  have hi0 : (i 0).val < 131072 := (i 0).isLt
  have hi1 : (i 1).val < 256 := (i 1).isLt
  have hN : cfg0.N = 64 := N_0
  obtain ⟨t, ht⟩ : ∃ t : Fin cfg0.N, t.val = (i 0).val / 2048 := ⟨⟨(i 0).val / 2048, by omega⟩, rfl⟩
  obtain ⟨e0, e1⟩ := idx11 t
  refine ⟨t, flush0_11 t, ?_⟩
  rw [mem_blk11]
  intro a
  match a with
  | ⟨0, _⟩ => show win0_11.index t (0 : Fin 2) * 2048 ≤ (i 0).val ∧ (i 0).val < win0_11.index t (0 : Fin 2) * 2048 + 2048; rw [e0, ht]; omega
  | ⟨1, _⟩ => show win0_11.index t (1 : Fin 2) * 256 ≤ (i 1).val ∧ (i 1).val < win0_11.index t (1 : Fin 2) * 256 + 256; rw [e1]; omega

/-- The hidden array after the run is the specification's. -/
theorem finalHidden (c : Dev nD) : (dats m 0 c).arrAt 11 cfg0.N = hiddenOf m c :=
  (dats m 0 c).arrAt_eq_of_cover 11 (hiddenOf m c) (fun t _ => flushedHidden_eq m c t) cover11

end Cert.KernelIdeal.CellValue

end
-- ==== Proof.RefCell.lean ====
/-
  The reference program computes the Tree-LSTM cell of the specification, entry by entry, on the extended reals.

  Its stages are: the matrix products `x · W_iouᵀ`, `hc · U_iouᵀ` (768 columns) and `x · W_fᵀ`, `hc · U_fᵀ` (256 columns),
  each entry a sum over `k` of a row entry times a transposed-weight entry; the biases, broadcast along the node
  axis; the three column blocks `j`, `256 + j`, `512 + j` of the stacked pre-activation; and the logistic function
  written as `1 / (1 + e⁻ˣ)` with the single-precision pattern of one. Read at an index `(n, j)`, with the index of
  every operand named by its coordinates, the stages are exactly the terms of the specification, added in the same
  order, so every identity closes by unfolding. The gathered child rows are never opened: they enter both sides as
  the same two arrays.
-/
import proofs.«121511_j53506702573723_1_alg».proof.Proof.Gen.ReferenceIdeal.Read
import proofs.«121511_j53506702573723_1_alg».proof.Proof.Spec

noncomputable section

namespace Cert.ReferenceIdeal.RefValue

open Cert.ReferenceIdeal Cert.ReferenceIdeal.Gen Idealize.ShloMosaic Idealize.ShloMosaic.ValueIdx Cert.TreeLstm

/-! ## Where each stage reads its operands

A transposed weight read at `(k, q)` is the weight at `(q, k)`; a bias broadcast along the node axis is read at its
column alone. Each equation names, by its coordinates, the index an operand is read at. -/

/-- Term `k` of `x · W_iouᵀ` at `(n, q)` reads `x` at `(n, k)`. -/
theorem lidx_v1 (i : S131072x768.Idx) (k : Fin 256) : Read.lidx_main_v1 i k = ix2 (i 0) k :=
  funext fun a => Fin.ext (by match a with | ⟨0, _⟩ => rfl | ⟨1, _⟩ => rfl)
/-- … and `W_iou`, through the transpose, at `(q, k)`. -/
theorem ridx_v1 (i : S131072x768.Idx) (k : Fin 256) : Read.idx_main_v0 (Read.ridx_main_v1 i k) = ix2 (i 1) k :=
  funext fun a => Fin.ext (by match a with | ⟨0, _⟩ => rfl | ⟨1, _⟩ => rfl)
/-- The broadcast `b_iou` at `(n, q)` is `b_iou[0, q]`. -/
theorem idx_v36 (i : S131072x768.Idx) : Read.idx_main_v36 i = ix2 0 (i 1) :=
  funext fun a => Fin.ext (by match a with | ⟨0, _⟩ => rfl | ⟨1, _⟩ => rfl)
/-- Term `k` of `hc · U_iouᵀ` at `(n, q)` reads `hc` at `(n, k)`. -/
theorem lidx_v39 (i : S131072x768.Idx) (k : Fin 256) : Read.lidx_main_v39 i k = ix2 (i 0) k :=
  funext fun a => Fin.ext (by match a with | ⟨0, _⟩ => rfl | ⟨1, _⟩ => rfl)
/-- … and `U_iou`, through the transpose, at `(q, k)`. -/
theorem ridx_v39 (i : S131072x768.Idx) (k : Fin 256) : Read.idx_main_v38 (Read.ridx_main_v39 i k) = ix2 (i 1) k :=
  funext fun a => Fin.ext (by match a with | ⟨0, _⟩ => rfl | ⟨1, _⟩ => rfl)

/-- Term `k` of `x · W_fᵀ` at `(n, j)` reads `x` at `(n, k)`. -/
theorem lidx_v3 (i : S131072x256.Idx) (k : Fin 256) : Read.lidx_main_v3 i k = ix2 (i 0) k :=
  funext fun a => Fin.ext (by match a with | ⟨0, _⟩ => rfl | ⟨1, _⟩ => rfl)
/-- … and `W_f`, through the transpose, at `(j, k)`. -/
theorem ridx_v3 (i : S131072x256.Idx) (k : Fin 256) : Read.idx_main_v2 (Read.ridx_main_v3 i k) = ix2 (i 1) k :=
  funext fun a => Fin.ext (by match a with | ⟨0, _⟩ => rfl | ⟨1, _⟩ => rfl)
/-- The vector `W_f_b`, made a row and then broadcast, at `(n, j)` is `W_f_b[j]`. -/
theorem idx_v5 (i : S131072x256.Idx) : Read.idx_main_v4 (Read.idx_main_v5 i) = ix1 (i 1) :=
  funext fun a => Fin.ext (by match a with | ⟨0, _⟩ => rfl)
/-- Term `k` of `hc · U_fᵀ` at `(n, j)` reads `hc` at `(n, k)`. -/
theorem lidx_v22 (i : S131072x256.Idx) (k : Fin 256) : Read.lidx_main_v22 i k = ix2 (i 0) k :=
  funext fun a => Fin.ext (by match a with | ⟨0, _⟩ => rfl | ⟨1, _⟩ => rfl)
/-- … and `U_f`, through the transpose, at `(j, k)`. -/
theorem ridx_v22 (i : S131072x256.Idx) (k : Fin 256) : Read.idx_main_v21 (Read.ridx_main_v22 i k) = ix2 (i 1) k :=
  funext fun a => Fin.ext (by match a with | ⟨0, _⟩ => rfl | ⟨1, _⟩ => rfl)
/-- The vector `U_f_b`, made a row and then broadcast, at `(n, j)` is `U_f_b[j]`. -/
theorem idx_v25 (i : S131072x256.Idx) : Read.idx_main_v24 (Read.idx_main_v25 i) = ix1 (i 1) :=
  funext fun a => Fin.ext (by match a with | ⟨0, _⟩ => rfl)
/-- The broadcast `b_f` at `(n, j)` is `b_f[0, j]`. -/
theorem idx_v27 (i : S131072x256.Idx) : Read.idx_main_v27 i = ix2 0 (i 1) :=
  funext fun a => Fin.ext (by match a with | ⟨0, _⟩ => rfl | ⟨1, _⟩ => rfl)

/-- The first column block of the stacked pre-activation: `(n, j) ↦ (n, j)`. -/
theorem idx_v41 (i : S131072x256.Idx) : Read.idx_main_v41 i = ix2 (i 0) (inRow (i 1)) :=
  funext fun a => Fin.ext (by match a with | ⟨0, _⟩ => rfl | ⟨1, _⟩ => rfl)
/-- The second column block: `(n, j) ↦ (n, 256 + j)`. -/
theorem idx_v42 (i : S131072x256.Idx) : Read.idx_main_v42 i = ix2 (i 0) (outRow (i 1)) :=
  funext fun a => Fin.ext (by match a with | ⟨0, _⟩ => rfl | ⟨1, _⟩ => exact Nat.add_comm _ _)
/-- The third column block: `(n, j) ↦ (n, 512 + j)`. -/
theorem idx_v43 (i : S131072x256.Idx) : Read.idx_main_v43 i = ix2 (i 0) (updRow (i 1)) :=
  funext fun a => Fin.ext (by match a with | ⟨0, _⟩ => rfl | ⟨1, _⟩ => exact Nat.add_comm _ _)

/-! ## The two pre-activations -/

/-- The stacked pre-activation at `(n, q)`: `(∑ₖ x[n,k] · W_iou[q,k] + b_iou[0,q]) + ∑ₖ hc[n,k] · U_iou[q,k]`, the sums
    and the additions in the order the program makes them. -/
theorem iou_eq (x0 x1 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal)) (i : S131072x768.Idx) :
    Read.val_main_v40 (F := Ideal) x0 x1 x3 x4 x5 x6 i
      = Cert.TreeLstm.iou x0 (Read.val_main_v13 (F := Ideal) x1 x3) x4 x5 x6 (i 0) (i 1) := by
  rw [Read.val_main_v40_apply, Read.val_main_v37_apply, Read.val_main_v1_apply, Read.val_main_v36_apply,
    Read.val_main_v39_apply]
  simp only [Read.val_main_v0_apply, Read.val_main_v38_apply, lidx_v1, ridx_v1, idx_v36, lidx_v39, ridx_v39,
    Ideal.addf_def]
  rfl

/-- The forget gate's pre-activation at `(n, j)`:
    `(((∑ₖ x[n,k] · W_f[j,k] + W_f_b[j]) + ∑ₖ hc[n,k] · U_f[j,k]) + U_f_b[j]) + b_f[0,j]`, added in that order. -/
theorem forgetPre_eq (x0 x1 : (⟨S131072x256, .f32⟩ : BufTy).Contents (Elt Ideal)) (x3 : (⟨S131072, .i32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S1x256, .f32⟩ : BufTy).Contents (Elt Ideal)) (i : S131072x256.Idx) :
    Read.val_main_v28 (F := Ideal) x0 x1 x3 x7 x8 x9 x10 x11 i
      = Cert.TreeLstm.forgetPre x0 (Read.val_main_v13 (F := Ideal) x1 x3) x7 x9 x8 x10 x11 (i 0) (i 1) := by
  rw [Read.val_main_v28_apply, Read.val_main_v26_apply, Read.val_main_v23_apply, Read.val_main_v6_apply,
    Read.val_main_v3_apply, Read.val_main_v5_apply, Read.val_main_v4_apply, Read.val_main_v22_apply,
    Read.val_main_v25_apply, Read.val_main_v24_apply, Read.val_main_v27_apply]
  simp only [Read.val_main_v2_apply, Read.val_main_v21_apply, lidx_v3, ridx_v3, idx_v5, lidx_v22, ridx_v22, idx_v25,
    idx_v27, Ideal.addf_def]
  rfl

/-- The input block of the stacked pre-activation: row `j`. -/
theorem in_eq (x0 x1 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal)) (i : S131072x256.Idx) :
    Read.val_main_v41 (F := Ideal) x0 x1 x3 x4 x5 x6 i = Cert.TreeLstm.iou x0 (Read.val_main_v13 (F := Ideal) x1 x3) x4 x5 x6 (i 0) (inRow (i 1)) := by
  have h := iou_eq x0 x1 x3 x4 x5 x6 (ix2 (i 0) (inRow (i 1)))
  rw [Read.val_main_v41_apply, idx_v41]; exact h

/-- The output block: row `256 + j`. -/
theorem out_eq (x0 x1 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal)) (i : S131072x256.Idx) :
    Read.val_main_v42 (F := Ideal) x0 x1 x3 x4 x5 x6 i = Cert.TreeLstm.iou x0 (Read.val_main_v13 (F := Ideal) x1 x3) x4 x5 x6 (i 0) (outRow (i 1)) := by
  have h := iou_eq x0 x1 x3 x4 x5 x6 (ix2 (i 0) (outRow (i 1)))
  rw [Read.val_main_v42_apply, idx_v42]; exact h

/-- The update block: row `512 + j`. -/
theorem upd_eq (x0 x1 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal)) (i : S131072x256.Idx) :
    Read.val_main_v43 (F := Ideal) x0 x1 x3 x4 x5 x6 i = Cert.TreeLstm.iou x0 (Read.val_main_v13 (F := Ideal) x1 x3) x4 x5 x6 (i 0) (updRow (i 1)) := by
  have h := iou_eq x0 x1 x3 x4 x5 x6 (ix2 (i 0) (updRow (i 1)))
  rw [Read.val_main_v43_apply, idx_v43]; exact h

/-! ## The gates

Each gate is `1 / (1 + e⁻ᵖ)` of its pre-activation `p`, with both ones the single-precision pattern of one: the
logistic function of `p`. -/

/-- The forget gate `σ(forgetPre n j)`. -/
theorem forget_eq (x0 x1 : (⟨S131072x256, .f32⟩ : BufTy).Contents (Elt Ideal)) (x3 : (⟨S131072, .i32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S1x256, .f32⟩ : BufTy).Contents (Elt Ideal)) (i : S131072x256.Idx) :
    Read.val_main_v34 (F := Ideal) x0 x1 x3 x7 x8 x9 x10 x11 i
      = Ideal.logistic (Cert.TreeLstm.forgetPre x0 (Read.val_main_v13 (F := Ideal) x1 x3) x7 x9 x8 x10 x11 (i 0) (i 1)) := by
  rw [Read.val_main_v34_apply, Read.val_main_v33_apply, Read.val_main_cst_3_apply, Read.val_main_v32_apply,
    Read.val_main_v31_apply, Read.val_main_cst_apply, Read.val_main_v30_apply, Read.val_main_v29_apply, forgetPre_eq]
  simp only [Ideal.hostDivf_def, Ideal.addf_def, Ideal.hostUnary_exp_def, Ideal.hostNegf_def, Ideal.negf_def, Ideal.ofBits_def, logistic_spelled]

/-- The input gate `σ(iou n j)`. -/
theorem inGate_eq (x0 x1 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal)) (i : S131072x256.Idx) :
    Read.val_main_v49 (F := Ideal) x0 x1 x3 x4 x5 x6 i = Ideal.logistic (Cert.TreeLstm.iou x0 (Read.val_main_v13 (F := Ideal) x1 x3) x4 x5 x6 (i 0) (inRow (i 1))) := by
  rw [Read.val_main_v49_apply, Read.val_main_v48_apply, Read.val_main_cst_5_apply, Read.val_main_v47_apply,
    Read.val_main_v46_apply, Read.val_main_cst_4_apply, Read.val_main_v45_apply, Read.val_main_v44_apply, in_eq]
  simp only [Ideal.hostDivf_def, Ideal.addf_def, Ideal.hostUnary_exp_def, Ideal.hostNegf_def, Ideal.negf_def, Ideal.ofBits_def, logistic_spelled]

/-- The output gate `σ(iou n (256 + j))`. -/
theorem outGate_eq (x0 x1 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal)) (i : S131072x256.Idx) :
    Read.val_main_v58 (F := Ideal) x0 x1 x3 x4 x5 x6 i = Ideal.logistic (Cert.TreeLstm.iou x0 (Read.val_main_v13 (F := Ideal) x1 x3) x4 x5 x6 (i 0) (outRow (i 1))) := by
  rw [Read.val_main_v58_apply, Read.val_main_v57_apply, Read.val_main_cst_7_apply, Read.val_main_v56_apply,
    Read.val_main_v55_apply, Read.val_main_cst_6_apply, Read.val_main_v54_apply, Read.val_main_v53_apply, out_eq]
  simp only [Ideal.hostDivf_def, Ideal.addf_def, Ideal.hostUnary_exp_def, Ideal.hostNegf_def, Ideal.negf_def, Ideal.ofBits_def, logistic_spelled]

/-- The candidate update `tanh(iou n (512 + j))`. -/
theorem update_eq (x0 x1 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal)) (i : S131072x256.Idx) :
    Read.val_main_v50 (F := Ideal) x0 x1 x3 x4 x5 x6 i = Ideal.tanh (Cert.TreeLstm.iou x0 (Read.val_main_v13 (F := Ideal) x1 x3) x4 x5 x6 (i 0) (updRow (i 1))) := by
  rw [Read.val_main_v50_apply, upd_eq]; rfl

/-! ## The two results -/

/-- The new cell state: `c[n,j] = σ(iou n j) · tanh(iou n (512 + j)) + σ(forgetPre n j) · cc[n,j]`. -/
theorem cell_eq (x0 x1 x2 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S1x256, .f32⟩ : BufTy).Contents (Elt Ideal)) :
    Read.val_main_v52 (F := Ideal) x0 x1 x2 x3 x4 x5 x6 x7 x8 x9 x10 x11
      = Cert.TreeLstm.cell x0 (Read.val_main_v13 (F := Ideal) x1 x3) (Read.val_main_v20 (F := Ideal) x2 x3) x4 x5 x6 x7 x9 x8 x10 x11 := by
  funext i
  rw [Read.val_main_v52_apply, Read.val_main_v51_apply, inGate_eq, update_eq, Read.val_main_v35_apply, forget_eq]
  rfl

/-- The new hidden state: `h[n,j] = σ(iou n (256 + j)) · tanh(c[n,j])`. -/
theorem hidden_eq (x0 x1 x2 : (⟨S131072x256, .f32⟩ : BufTy).Contents (Elt Ideal)) (x3 : (⟨S131072, .i32⟩ : BufTy).Contents (Elt Ideal))
    (x4 x5 : (⟨S768x256, .f32⟩ : BufTy).Contents (Elt Ideal)) (x6 : (⟨S1x768, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S1x256, .f32⟩ : BufTy).Contents (Elt Ideal)) :
    Read.val_main_v60 (F := Ideal) x0 x1 x2 x3 x4 x5 x6 x7 x8 x9 x10 x11
      = Cert.TreeLstm.hidden x0 (Read.val_main_v13 (F := Ideal) x1 x3) (Read.val_main_v20 (F := Ideal) x2 x3) x4 x5 x6 x7 x9 x8 x10 x11 := by
  funext i
  rw [Read.val_main_v60_apply, outGate_eq, Read.val_main_v59_apply, cell_eq]
  rfl

end Cert.ReferenceIdeal.RefValue

end
-- ==== Proof.lean ====
/-
  The Tree-LSTM cell kernel against its reference, on the extended reals.

  Both programs compute, for each of 131072 nodes with one child each, the cell's new cell state `c` and hidden state
  `h` (256 units): with `hc`, `cc` the child's hidden and cell rows,

      iou = (x · W_iouᵀ + b_iou) + hc · U_iouᵀ,          f = σ((((x · W_fᵀ + W_f_b) + hc · U_fᵀ) + U_f_b) + b_f),
      c   = σ(iou[:, 0:256]) · tanh(iou[:, 512:768]) + f · cc,      h = σ(iou[:, 256:512]) · tanh(c).

  The kernel program gathers the child rows and transposes the weights on the host, then runs one kernel over 64
  blocks of 2048 nodes, whose products are matrix products into zero accumulators on operands rounded to a 16-bit
  format and whose σ is one logistic operation; the reference is written with whole-array products and spells σ as
  `1 / (1 + e⁻ˣ)`. On exact values the rounding is the identity, a matrix product into zero is the plain sum of
  products, the logistic operation is that quotient, and both programs add their terms in the same order: entry by
  entry both results are the specification's arrays (Spec.lean). The kernel's side is CellArrays.lean (over
  TileValue.lean, Payload.lean, HostArrays.lean, BlockReads.lean), the reference's RefCell.lean; here the two runs are
  set side by side. The gathers are never opened: they are the same operation of the same arguments in both programs.
  No input needs to be finite for any of this, so the precondition is not used. The idealization rewrote nothing, so
  that conjunct is trivial; the three frames are the generated ones (the reference's is its run with the results
  dropped).
-/
import proofs.«121511_j53506702573723_1_alg».proof.Defs
import proofs.«121511_j53506702573723_1_alg».proof.Proof.Gen.Kernel
import proofs.«121511_j53506702573723_1_alg».proof.Proof.Gen.Kernel.Skeleton
import proofs.«121511_j53506702573723_1_alg».proof.Proof.Gen.Kernel.Launch
import proofs.«121511_j53506702573723_1_alg».proof.Proof.Gen.Kernel.Points
import proofs.«121511_j53506702573723_1_alg».proof.Proof.Gen.Kernel.Frame
import proofs.«121511_j53506702573723_1_alg».proof.Proof.Gen.KernelIdeal
import proofs.«121511_j53506702573723_1_alg».proof.Proof.Gen.KernelIdeal.Skeleton
import proofs.«121511_j53506702573723_1_alg».proof.Proof.Gen.KernelIdeal.Launch
import proofs.«121511_j53506702573723_1_alg».proof.Proof.Gen.KernelIdeal.Points
import proofs.«121511_j53506702573723_1_alg».proof.Proof.Gen.KernelIdeal.Frame
import proofs.«121511_j53506702573723_1_alg».proof.Proof.Gen.ReferenceIdeal
import proofs.«121511_j53506702573723_1_alg».proof.Proof.Gen.Pre_finite_inputs
import proofs.«121511_j53506702573723_1_alg».proof.Proof.Gen.KernelIdeal.Value
import proofs.«121511_j53506702573723_1_alg».proof.Proof.Gen.ReferenceIdeal.Run
import proofs.«121511_j53506702573723_1_alg».proof.Proof.Gen.ReferenceIdeal.Read
import proofs.«121511_j53506702573723_1_alg».proof.Proof.CellArrays
import proofs.«121511_j53506702573723_1_alg».proof.Proof.RefCell
import Idealize.ShloMosaic.Adequacy
import Idealize.ShloMosaic.Init

noncomputable section

namespace Cert.Proof

open Idealize.ShloMosaic Idealize.SL.Sem

/-- The reference gathers the child's hidden rows exactly as the kernel program does. -/
theorem childH_ref (a : (⟨Cert.KernelIdeal.S131072x256, .f32⟩ : BufTy).Contents (Elt Ideal))
    (b : (⟨Cert.KernelIdeal.S131072, .i32⟩ : BufTy).Contents (Elt Ideal)) :
    Cert.ReferenceIdeal.Read.val_main_v13 (F := Ideal) a b = Cert.KernelIdeal.CellValue.childRows a b := rfl

/-- … and the child's cell rows. -/
theorem childC_ref (a : (⟨Cert.KernelIdeal.S131072x256, .f32⟩ : BufTy).Contents (Elt Ideal))
    (b : (⟨Cert.KernelIdeal.S131072, .i32⟩ : BufTy).Contents (Elt Ideal)) :
    Cert.ReferenceIdeal.Read.val_main_v20 (F := Ideal) a b = Cert.KernelIdeal.CellValue.childRows a b := rfl

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the specification's hidden and cell arrays of the (agreeing) arguments. -/
theorem algebraic : Cert.algebraic_KernelIdeal_ReferenceIdeal := by
  intro m ρ m' ρ' _ hagree
  refine ⟨fun c => Cert.KernelIdeal.CellValue.hiddenOf m c, fun c => Cert.KernelIdeal.CellValue.cellOf m c, ?_, ?_⟩
  · exact (θ_run Cert.KernelIdeal.defs _ _).mono (fun r h c =>
      ⟨(h c).1.trans (Cert.KernelIdeal.CellValue.finalHidden m c), (h c).2.1.trans (Cert.KernelIdeal.CellValue.finalCell m c), (h c).2.2⟩)
      (Cert.KernelIdeal.Value.run_blocks m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7, a8, a9, a10, a11⟩ := hagree c
      rw [Cert.ReferenceIdeal.Read.val_main_v60_eq, Cert.ReferenceIdeal.RefValue.hidden_eq, a0, a1, a2, a3, a4, a5, a6, a7, a8, a9,
        a10, a11, childH_ref, childC_ref]
      rfl
    · obtain ⟨a0, a1, a2, a3, a4, a5, a6, a7, a8, a9, a10, a11⟩ := hagree c
      rw [Cert.ReferenceIdeal.Read.val_main_v52_eq, Cert.ReferenceIdeal.RefValue.cell_eq, a0, a1, a2, a3, a4, a5, a6, a7, a8, a9,
        a10, a11, childH_ref, childC_ref]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
